-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S256x1024 : Shape := ⟨2, ![256, 1024]⟩
abbrev S256 : Shape := ⟨1, ![256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S2048x1024 .f32) (main_arg1 : FVec F S256x1024 .f32) (main_arg2 : FVec F S256x1024 .f32) (main_arg3 : FVec F S256 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S2048x1024 : Shape := ⟨2, ![2048, 1024]⟩
abbrev S256x1024 : Shape := ⟨2, ![256, 1024]⟩
abbrev S256 : Shape := ⟨1, ![256]⟩
abbrev S_ : Shape := ⟨0, ![]⟩
abbrev S1024x256 : Shape := ⟨2, ![1024, 256]⟩
abbrev S2048x256 : Shape := ⟨2, ![2048, 256]⟩
abbrev S1x256 : Shape := ⟨2, ![1, 256]⟩
abbrev S256x256 : Shape := ⟨2, ![256, 256]⟩
abbrev S256x2048 : Shape := ⟨2, ![256, 2048]⟩

abbrev nBuf : Space → Nat
  | .hbm => 31
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256x1024, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S2048x256, .f32⟩
  | .hbm, ⟨27, _⟩ => ⟨S2048x256, .bf16⟩
  | .hbm, ⟨28, _⟩ => ⟨S1x256, .f32⟩
  | .hbm, ⟨29, _⟩ => ⟨S2048x1024, .bf16⟩
  | .hbm, ⟨30, _⟩ => ⟨S2048x256, .f32⟩
  | .local _ .vmem, ⟨0, _⟩ => ⟨S256x1024, .bf16⟩
  | .local _ .vmem, ⟨1, _⟩ => ⟨S256x1024, .bf16⟩
  | .local _ .vmem, ⟨2, _⟩ => ⟨S2048x256, .bf16⟩
  | .local _ .vmem, ⟨3, _⟩ => ⟨S1x256, .f32⟩
  | .local _ .vmem, ⟨4, _⟩ => ⟨S256x256, .f32⟩
  | .local _ .vmem, ⟨5, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x1024_S256_d1 : S256x1024.ReducesTo [1] S256
  h_S_ : 0 < S_.numel
  bcast_S_S256 : S_.BroadcastsInDim S256 (![] : Fin 0 → Fin S256.rank)
  transposes_S256x1024_S1024x256_1_0 : S256x1024.Transposes [1, 0] S1024x256
  bcast_S_S1024x256 : S_.BroadcastsInDim S1024x256 (![] : Fin 0 → Fin S1024x256.rank)
  concatenates_S1024x256_S1024x256_S2048x256_d0 : Shape.Concatenates [S1024x256, S1024x256] S2048x256 0
  bitsLt_bf16_f32 : FTy.bits .bf16 < FTy.bits .f32
  shapeCasts_S256_S1x256 : S256.ShapeCasts S1x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  concatenates_S256x1024_S256x1024_S256x2048_d1 : Shape.Concatenates [S256x1024, S256x1024] S256x2048 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .bf16 = 32 ∨ (Rect.block (s := S2048x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x256.size a
  hwx0_3 : ∀ i : grid0.Coords, EltTy.bits .f32 = 32 ∨ (Rect.block (s := S2048x256) S256x256.size (cc0_transform_3 i) (hinb0_3 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v20) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S256x1024 : Shape := ⟨2, ![256, 1024]⟩
abbrev S256 : Shape := ⟨1, ![256]⟩
abbrev S_ : Shape := ⟨0, ![]⟩
abbrev S2048x256 : Shape := ⟨2, ![2048, 256]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S256, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S2048x1024, .f32⟩
  | .hbm, ⟨21, _⟩ => ⟨S2048x256, .f32⟩
  | .hbm, ⟨22, _⟩ => ⟨S256x1024, .f32⟩
  | .hbm, ⟨23, _⟩ => ⟨S2048x256, .f32⟩
  | .hbm, ⟨24, _⟩ => ⟨S1x256, .f32⟩
  | .hbm, ⟨25, _⟩ => ⟨S_, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S256x1024_S256_d1 : S256x1024.ReducesTo [1] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S2048x256 : S_.BroadcastsInDim S2048x256 (![] : Fin 0 → Fin S2048x256.rank)
  bcast_S1x256_S2048x256_0_1 : S1x256.BroadcastsInDim S2048x256 (![0, 1] : Fin 2 → Fin S2048x256.rank)
  dot_S2048x1024_S256x1024_S2048x256_1_1_0_0_n_n_wf : DotDims.WF S2048x1024 S256x1024 S2048x256 [1] [1] [0] [0] [] []

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

class Facts : Prop extends Facts₀ where

variable [Facts]
-- ==== Proof.GaussLaw.lean ====
/-
  The arithmetic that joins the two programs, on the extended reals.

  Both programs score a sample x against a class with mean mu and log-variance lv as
      kappa - (1/2) * sum_f x_f^2 * e^(-lv_f) + sum_f x_f * (mu_f * e^(-lv_f)).
  One program forms the quadratic part as half of a sum and subtracts it; the other folds the factor -1/2 into every
  term and takes the two sums as the two halves of one long sum of products.  On the extended reals a factor moves
  across a sum only when the terms are real numbers, so the law is stated for real x_f and real e^(-lv_f); kappa and
  the linear part may be any extended reals, because re-bracketing a sum needs no finiteness.
-/
import Idealize.ShloMosaic.PureOps.Ideal
import Idealize.ShloMosaic.PureOps.Ideal.Laws
import Mathlib.Algebra.BigOperators.Fin

noncomputable section

namespace Cert.GaussLaw

open Idealize.ShloMosaic
open scoped BigOperators

/-- The inclusion of the reals in the extended reals commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over 2n consecutive positions is the sum over the first n plus the sum over the last n. -/
theorem sum_halves {M : Type*} [AddCommMonoid M] (n : ℕ) (F : Fin (n + n) → M) :
    ∑ k, F k = ∑ f : Fin n, F ⟨f.val, by omega⟩ + ∑ f : Fin n, F ⟨f.val + n, by omega⟩ := by
  rw [Fin.sum_univ_add]
  congr 1
  refine Finset.sum_congr rfl fun f _ => congrArg F (Fin.ext ?_)
  show n + f.val = f.val + n
  omega

/-- With every x_f and every weight v_f real, folding -1/2 into each term of the quadratic sum gives minus half the sum. -/
theorem neg_half_sum {n : ℕ} (X V : Fin n → EReal) (hX : ∀ f, ∃ r : ℝ, X f = r) (hV : ∀ f, ∃ r : ℝ, V f = r) :
    ∑ f, (X f * X f) * (((-(1 / 2) : ℝ) : EReal) * V f) = -(((1 / 2 : ℝ) : EReal) * ∑ f, (X f * X f) * V f) := by
  choose a ha using hX
  choose v hv using hV
  simp only [ha, hv, ← EReal.coe_mul, ← coe_sum, ← EReal.coe_neg]
  congr 1
  rw [Finset.mul_sum, ← Finset.sum_neg_distrib]
  exact Finset.sum_congr rfl fun f _ => by ring

/-- Re-bracketing: a constant plus (minus half the quadratic part plus the linear part) is (the constant less half the
    quadratic part) plus the linear part. -/
theorem rebracket (κ S₁ h Q S₂ : EReal) (hS : S₁ = -(h * Q)) : κ + (S₁ + S₂) = (κ - h * Q) + S₂ := by
  rw [hS, sub_eq_add_neg, add_assoc]

/-- The binary32 pattern 0x3F000000 denotes 1/2. -/
theorem ofBits_half : Ideal.ofBits .f32 0x3F000000#32 = ((1 / 2 : ℝ) : EReal) := by
  simp [Ideal.ofBits, Ideal.ieee, -EReal.coe_mul]; norm_num

/-- The binary32 pattern 0xBF000000 denotes -1/2. -/
theorem ofBits_neg_half : Ideal.ofBits .f32 0xBF000000#32 = ((-(1 / 2) : ℝ) : EReal) := by
  simp [Ideal.ofBits, Ideal.ieee, -EReal.coe_mul]; norm_num

/-- The exponential of minus a real is a real. -/
theorem exp_neg_real {x : EReal} (h : ∃ r : ℝ, x = r) : ∃ r : ℝ, Ideal.exp (-x) = r := by
  obtain ⟨r, rfl⟩ := h
  exact ⟨Real.exp (-r), by rw [← EReal.coe_neg, Ideal.exp_coe]⟩

end Cert.GaussLaw

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Score.lean ====
/-
  The function both programs compute, index by index on the extended reals.

  For a sample b, a class c and features f = 0 … 1023 the score is
      kappa c - (1/2) * sum_f x(b,f)^2 * e^(-lv(c,f)) + sum_f x(b,f) * (mu(c,f) * e^(-lv(c,f))),
  where kappa is the per-class constant (its own formula is the same text in both programs and is never opened).
  The fused form keeps -1/2 inside every quadratic term; it equals the score when x and lv hold real numbers.
-/
import Idealize.ShloMosaic.Lib.ValueIdx
import proofs.«159425_j21345987461759_2_alg».proof.Proof.GaussLaw

noncomputable section

namespace Cert.Score

open Idealize.ShloMosaic Idealize.ShloMosaic.ValueIdx
open scoped BigOperators

/-- The score of sample `i 0` for class `i 1`. -/
def score (X : (⟨2, ![2048, 1024]⟩ : Shape).Idx → EReal) (MU LV : (⟨2, ![256, 1024]⟩ : Shape).Idx → EReal)
    (κ : (⟨1, ![256]⟩ : Shape).Idx → EReal) : (⟨2, ![2048, 256]⟩ : Shape).Idx → EReal := fun i =>
  (κ (ix1 (i 1)) - ((1 / 2 : ℝ) : EReal) * ∑ f : Fin 1024, (X (ix2 (i 0) f) * X (ix2 (i 0) f)) * Ideal.exp (-(LV (ix2 (i 1) f))))
    + ∑ f : Fin 1024, X (ix2 (i 0) f) * (MU (ix2 (i 1) f) * Ideal.exp (-(LV (ix2 (i 1) f))))

/-- The fused form — the constant plus the two halves of one long sum, -1/2 folded into the quadratic weights — is the
    score, when the samples and the log-variances are real. -/
theorem fused_eq_score (X : (⟨2, ![2048, 1024]⟩ : Shape).Idx → EReal) (MU LV : (⟨2, ![256, 1024]⟩ : Shape).Idx → EReal)
    (κ : (⟨1, ![256]⟩ : Shape).Idx → EReal) (hX : ∀ i, ∃ r : ℝ, X i = r) (hLV : ∀ i, ∃ r : ℝ, LV i = r)
    (b : Fin 2048) (c : Fin 256) :
    κ (ix1 c) + (∑ f : Fin 1024, (X (ix2 b f) * X (ix2 b f)) * (((-(1 / 2) : ℝ) : EReal) * Ideal.exp (-(LV (ix2 c f))))
        + ∑ f : Fin 1024, X (ix2 b f) * (MU (ix2 c f) * Ideal.exp (-(LV (ix2 c f)))))
      = score X MU LV κ (ix2 b c) :=
  GaussLaw.rebracket _ _ _ _ _
    (GaussLaw.neg_half_sum (fun f => X (ix2 b f)) (fun f => Ideal.exp (-(LV (ix2 c f)))) (fun _ => hX _)
      (fun _ => GaussLaw.exp_neg_real (hLV _)))

end Cert.Score

end
-- ==== Proof.KernelBody.lean ====
/-
  The kernel body's stored value at one entry.

  At entry (p, q) of a 256 x 256 output block the body stores the class constant's row at q plus the product of the
  lane concatenation [x*x | x] (256 x 2048) with the resident weights (2048 x 256): the constant at q plus the sum over
  the first 1024 positions of x(p,f)^2 * w(f, q) plus the sum over the last 1024 of x(p,f) * w(1024 + f, q).
-/
import proofs.«159425_j21345987461759_2_alg».proof.Proof.Gen.KernelIdeal.Skeleton
import proofs.«159425_j21345987461759_2_alg».proof.Proof.LibDot
import proofs.«159425_j21345987461759_2_alg».proof.Proof.GaussLaw
import proofs.«159425_j21345987461759_2_alg».proof.Proof.Score
import Idealize.ShloMosaic.Lib.Pipeline.Value
import Idealize.ShloMosaic.Lib.ValueLayout
import Idealize.ShloMosaic.Lib.ValueIdx
import Idealize.ShloMosaic.PureOps.Ideal.Laws

noncomputable section

namespace Cert.KernelBody

open Cert.KernelIdeal Cert.KernelIdeal.Gen Idealize.ShloMosaic Idealize.ShloMosaic.ValueIdx
open scoped BigOperators

/-- Position f of the first half of the 2048 contracted positions. -/
abbrev lo (f : Fin 1024) : Fin 2048 := ⟨f.val, by omega⟩
/-- Position f of the second half. -/
abbrev hi (f : Fin 1024) : Fin 2048 := ⟨f.val + 1024, by omega⟩

/-- The lane concatenation [x*x | x] at a position of its first half holds the square. -/
theorem cat_lo (x : FVec Ideal S256x1024 .bf16) (p : Fin 256) (f : Fin 1024) :
    concatenate S256x2048 1 [⟨S256x1024, mulf x x⟩, ⟨S256x1024, x⟩] concatenates_S256x1024_S256x1024_S256x2048_d1 (ix2 p (lo f))
      = x (ix2 p f) * x (ix2 p f) :=
  concatenate_pair_apply_left (1 : Fin 2) (mulf x x) x concatenates_S256x1024_S256x1024_S256x2048_d1 (ix2 p (lo f)) rfl (ix2 p f)
    (fun b => match b with | ⟨0, _⟩ => rfl | ⟨1, _⟩ => rfl)

/-- … and at a position of its second half holds x itself. -/
theorem cat_hi (x : FVec Ideal S256x1024 .bf16) (p : Fin 256) (f : Fin 1024) :
    concatenate S256x2048 1 [⟨S256x1024, mulf x x⟩, ⟨S256x1024, x⟩] concatenates_S256x1024_S256x1024_S256x2048_d1 (ix2 p (hi f))
      = x (ix2 p f) :=
  concatenate_pair_apply_right (1 : Fin 2) (mulf x x) x concatenates_S256x1024_S256x1024_S256x2048_d1 (ix2 p (hi f)) rfl rfl (ix2 p f)
    (fun b hb => match b, hb with | ⟨0, _⟩, _ => rfl | ⟨1, _⟩, hb => absurd rfl hb) rfl

/-- The body's stored value at entry (p, q). -/
theorem pay_apply (x0 : Vec Ideal S256x1024 .bf16) (x1 : Vec Ideal S2048x256 .bf16) (x2 : Vec Ideal S1x256 .f32)
    (p q : Fin 256) :
    k0_pay1 x0 x1 x2 (ix2 p q)
      = x2 (ix2 (0 : Fin 1) q) + (∑ f : Fin 1024, (x0 (ix2 p f) * x0 (ix2 p f)) * x1 (ix2 (lo f) q)
          + ∑ f : Fin 1024, x0 (ix2 p f) * x1 (ix2 (hi f) q)) := by
  unfold k0_pay1
  simp only [shapeCast_self, addf_apply, matmul]
  rw [broadcastTo_1b_ab_apply x2 broadcasts_S1x256_S256x256 p q,
    LibDot.matmul_zero_apply dot_S256x2048_S2048x256_S256x256_1_0_0_1_n_n rfl rfl
      (fun j c => rfl) (fun j c => DotDims.lhsIdx_val_of_single _ rfl j c)
      (fun j c => DotDims.rhsIdx_val_of_single _ rfl j c) (fun j c => rfl) none _ x1 p q,
    GaussLaw.sum_halves 1024]
  refine congrArg (x2 (ix2 (0 : Fin 1) q) + ·) (congrArg₂ (· + ·) (Finset.sum_congr rfl fun f _ => ?_) (Finset.sum_congr rfl fun f _ => ?_))
  · rw [cat_lo, shapeCast_self]
  · rw [cat_hi, shapeCast_self]

/-- With the staged blocks read off the arrays — rows r·256 … r·256 + 255 of the samples, the whole weights, the row of
    class constants — the stored value at (p, q) is the score of sample r·256 + p for class q. -/
theorem pay_score (X : S2048x1024.Idx → EReal) (MU LV : S256x1024.Idx → EReal) (κ : S256.Idx → EReal)
    (hX : ∀ i, ∃ r : ℝ, X i = r) (hLV : ∀ i, ∃ r : ℝ, LV i = r)
    (W : S2048x256.Idx → EReal)
    (hWlo : ∀ f c, W (ix2 (lo f) c) = ((-(1 / 2) : ℝ) : EReal) * Ideal.exp (-(LV (ix2 c f))))
    (hWhi : ∀ f c, W (ix2 (hi f) c) = MU (ix2 c f) * Ideal.exp (-(LV (ix2 c f))))
    (K : S1x256.Idx → EReal) (hK : ∀ q, K (ix2 (0 : Fin 1) q) = κ (ix1 q))
    (x0 : Vec Ideal S256x1024 .bf16) (x1 : Vec Ideal S2048x256 .bf16) (x2 : Vec Ideal S1x256 .f32)
    (r : ℕ) (hr : r < 8)
    (h0 : ∀ (p : Fin 256) (f : Fin 1024), x0 (ix2 p f) = X (ix2 ⟨r * 256 + p.val, by omega⟩ f))
    (h1 : ∀ z, x1 z = W z) (h2 : ∀ z, x2 z = K z) (p q : Fin 256) :
    k0_pay1 x0 x1 x2 (ix2 p q) = Score.score X MU LV κ (ix2 ⟨r * 256 + p.val, by omega⟩ q) := by
  rw [pay_apply, h2, hK]
  simp only [h0, h1, hWlo, hWhi]
  exact Score.fused_eq_score X MU LV κ hX hLV _ q

end Cert.KernelBody

end
-- ==== Proof.HostPrefix.lean ====
/-
  What the three staged operands hold when the kernel's region is entered, read at an index.

  Before the region the host program forms, from the arguments mu, lv (log-variance) and log_pi:
    * the resident weights, a 2048 x 256 array: rows 0 … 1023 hold -1/2 * e^(-lv(c,f)) at (f, c) and rows
      1024 … 2047 hold mu(c,f) * e^(-lv(c,f)) at (1024 + f, c) — two transposed 1024 x 256 pieces stacked;
    * the class constants as a 1 x 256 row, the reshape of the per-class constant kappa;
    * the samples x unchanged (a change of float format is the identity on the extended reals).
-/
import proofs.«159425_j21345987461759_2_alg».proof.Proof.Gen.KernelIdeal.Frame
import proofs.«159425_j21345987461759_2_alg».proof.Proof.GaussLaw
import proofs.«159425_j21345987461759_2_alg».proof.Proof.KernelBody
import Idealize.ShloMosaic.Lib.StableHlo.Run
import Idealize.ShloMosaic.Lib.Pipeline.Value
import Idealize.ShloMosaic.Lib.ValueLayout
import Idealize.ShloMosaic.Lib.ValueIdx

noncomputable section

namespace Cert.HostPrefix

open Cert.KernelIdeal Cert.KernelIdeal.Gen Idealize.ShloMosaic Idealize.ShloMosaic.TcCoe Idealize.SL.Sem
open Idealize.ShloMosaic.StableHlo Idealize.ShloMosaic.ValueIdx Cert.KernelBody

/-- The per-class constant: log_pi less half of (1024 log 2π + the row sum of lv + the row sum of mu² e^(-lv)). -/
def kappa (MU LV : S256x1024.Idx → EReal) (LP : S256.Idx → EReal) : S256.Idx → EReal :=
  subf (F := Ideal) (φ := .f32) LP
    (mulf (broadcastInDim S256 ![] bcast_S_S256 (constant (F := Ideal) S_ .f32 0x3F000000#32))
      (addf
        (addf (broadcastInDim S256 ![] bcast_S_S256 (constant (F := Ideal) S_ .f32 0x44EB3F8E#32))
          (Host.reduceAdd (F := Ideal) (φ := .f32) LV (constant (F := Ideal) S_ .f32 0x00000000#32) reducesTo_S256x1024_S256_d1 h_S_))
        (Host.reduceAdd (F := Ideal) (φ := .f32) (mulf (mulf MU MU) (Host.exp (F := Ideal) (φ := .f32) (Host.negf (F := Ideal) (φ := .f32) LV)))
          (constant (F := Ideal) S_ .f32 0x00000000#32) reducesTo_S256x1024_S256_d1 h_S_)))

/-- The class constants laid out as one row. -/
def kappaRow (MU LV : S256x1024.Idx → EReal) (LP : S256.Idx → EReal) : S1x256.Idx → EReal :=
  shapeCast S1x256 (kappa MU LV LP) shapeCasts_S256_S1x256

/-- The resident weights: the two transposed pieces stacked along the rows. -/
def weights (MU LV : S256x1024.Idx → EReal) : S2048x256.Idx → EReal :=
  truncf (F := Ideal) (φ := .f32) .bf16
    (concatenate S2048x256 0
      [⟨S1024x256, mulf (F := Ideal) (φ := .f32) (broadcastInDim S1024x256 ![] bcast_S_S1024x256 (constant (F := Ideal) S_ .f32 0xBF000000#32))
          (transpose S1024x256 [1, 0] (Host.exp (F := Ideal) (φ := .f32) (Host.negf (F := Ideal) (φ := .f32) LV)) transposes_S256x1024_S1024x256_1_0)⟩,
        ⟨S1024x256, transpose S1024x256 [1, 0] (mulf (F := Ideal) (φ := .f32) MU (Host.exp (F := Ideal) (φ := .f32) (Host.negf (F := Ideal) (φ := .f32) LV)))
          transposes_S256x1024_S1024x256_1_0⟩]
      concatenates_S1024x256_S1024x256_S2048x256_d0)
    bitsLt_bf16_f32

/-- The row of class constants at column q is the constant of class q. -/
theorem kappaRow_apply (MU LV : S256x1024.Idx → EReal) (LP : S256.Idx → EReal) (q : Fin 256) :
    kappaRow MU LV LP (ix2 (0 : Fin 1) q) = kappa MU LV LP (ix1 q) :=
  shapeCast_a_1a_apply (kappa MU LV LP) shapeCasts_S256_S1x256 0 q

/-- Row f of the weights, f < 1024, at class c: -1/2 · e^(-lv(c,f)). -/
theorem weights_lo (MU LV : S256x1024.Idx → EReal) (f : Fin 1024) (c : Fin 256) :
    weights MU LV (ix2 (lo f) c) = ((-(1 / 2) : ℝ) : EReal) * Ideal.exp (-(LV (ix2 c f))) := by
  unfold weights
  rw [truncf_apply]
  refine (concatenate_pair_apply_left (s₁ := S1024x256) (s₂ := S1024x256) (0 : Fin 2) _ _ concatenates_S1024x256_S1024x256_S2048x256_d0 (ix2 (lo f) c) rfl (ix2 f c)
    (fun b => match b with | ⟨0, _⟩ => rfl | ⟨1, _⟩ => rfl)).trans ?_
  rw [mulf_apply, transpose_ix2_apply, broadcastInDim_apply _ bcast_S_S1024x256 _ _ ix0 (fun a => a.elim0), constant_apply,
    GaussLaw.ofBits_neg_half]
  rfl

/-- Row 1024 + f of the weights at class c: mu(c,f) · e^(-lv(c,f)). -/
theorem weights_hi (MU LV : S256x1024.Idx → EReal) (f : Fin 1024) (c : Fin 256) :
    weights MU LV (ix2 (hi f) c) = MU (ix2 c f) * Ideal.exp (-(LV (ix2 c f))) := by
  unfold weights
  rw [truncf_apply]
  refine (concatenate_pair_apply_right (s₁ := S1024x256) (s₂ := S1024x256) (0 : Fin 2) _ _ concatenates_S1024x256_S1024x256_S2048x256_d0 (ix2 (hi f) c) rfl rfl (ix2 f c)
    (fun b hb => match b, hb with | ⟨0, _⟩, hb => absurd rfl hb | ⟨1, _⟩, _ => rfl) rfl).trans ?_
  rw [transpose_ix2_apply, mulf_apply]
  rfl

variable (m : (ℓ : Loc nD τ sig) → Buf (Elt Ideal) ℓ)

/-- At region entry the staged samples are the argument x. -/
theorem V_samples (c : Dev nD) :
    (V m c main_v20 : S2048x1024.Idx → EReal) = m ((c : Thread nD τ).loc main_arg0) := by
  dsimp only [Gen.V, Gen.hostOps0]
  after_results
  rfl

/-- At region entry the staged weights are `weights` of mu and lv. -/
theorem V_weights (c : Dev nD) :
    (V m c main_v18 : S2048x256.Idx → EReal) = weights (m ((c : Thread nD τ).loc main_arg1)) (m ((c : Thread nD τ).loc main_arg2)) := by
  dsimp only [Gen.V, Gen.hostOps0]
  after_results
  rfl

/-- At region entry the staged row of constants is `kappaRow` of mu, lv and log_pi. -/
theorem V_kappaRow (c : Dev nD) :
    (V m c main_v19 : S1x256.Idx → EReal)
      = kappaRow (m ((c : Thread nD τ).loc main_arg1)) (m ((c : Thread nD τ).loc main_arg2)) (m ((c : Thread nD τ).loc main_arg3)) := by
  dsimp only [Gen.V, Gen.hostOps0]
  after_results
  rfl

end Cert.HostPrefix

end
-- ==== Proof.KernelValue.lean ====
/-
  The kernel's result array after the run is the score of the arguments.

  The grid has eight points; point t reads rows 256 t … 256 t + 255 of the samples, the whole weights and the whole row
  of class constants, and writes rows 256 t … 256 t + 255 of the result.  At entry (p, q) of its block the body stores
  the score of sample 256 t + p for class q, so what point t writes back is block t of the score; the eight blocks tile
  the 2048 rows (row i lies in block i / 256), hence the whole array ends at the score.
-/
import proofs.«159425_j21345987461759_2_alg».proof.Proof.Gen.KernelIdeal.Value
import proofs.«159425_j21345987461759_2_alg».proof.Proof.HostPrefix
import proofs.«159425_j21345987461759_2_alg».proof.Proof.KernelBody
import proofs.«159425_j21345987461759_2_alg».proof.Proof.Score

set_option maxRecDepth 16384

noncomputable section

namespace Cert.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.KernelBody Cert.HostPrefix

variable (m : (ℓ : Loc nD τ sig) → Buf (Elt Ideal) ℓ) (ρ : Dev nD → PrngReg)

theorem zero_offsets : (![0, 0] : Fin 2 → Nat) = fun _ => 0 := funext fun a => by fin_cases a <;> rfl

/-- The score of the argument arrays on core c, the class constants computed as the host prefix computes them. -/
abbrev result (c : Dev nD) : S2048x256.Idx → EReal :=
  Score.score (m ((c : Thread nD τ).loc main_arg0)) (m ((c : Thread nD τ).loc main_arg1)) (m ((c : Thread nD τ).loc main_arg2))
    (kappa (m ((c : Thread nD τ).loc main_arg1)) (m ((c : Thread nD τ).loc main_arg2)) (m ((c : Thread nD τ).loc main_arg3)))

/-- The block indices at point t, decided over the eight points: the samples and the result move down one block of
    rows per point; the weights and the constants stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the score. -/
theorem flushed_eq (hX : ∀ (c : Dev nD) (i : S2048x1024.Idx), ∃ r : ℝ, (m ((c : Thread nD τ).loc main_arg0) : S2048x1024.Idx → EReal) i = (r : EReal))
    (hLV : ∀ (c : Dev nD) (i : S256x1024.Idx), ∃ r : ℝ, (m ((c : Thread nD τ).loc main_arg2) : S256x1024.Idx → EReal) i = (r : EReal)) (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S256x1024) zero_offsets, View.ld_unit_zero (S := S2048x256) zero_offsets,
    View.ld_unit_zero (S := S1x256) zero_offsets]
  obtain ⟨e00, e01, e10, e11, e20, e21, e30, e31⟩ := block_indices t
  have ht : t.val < 8 := t.isLt
  funext y
  obtain ⟨p, q, rfl⟩ : ∃ (p q : Fin 256), y = ix2 p q := ⟨y 0, y 1, eq_ix2 y⟩
  show k0_pay1 (iblk m c 0 t) (iblk m c 1 t) (iblk m c 2 t) (ix2 p q)
    = result m c (((cfg0.win 3).blk t).view.emb (ix2 p q))
  refine (pay_score (m ((c : Thread nD τ).loc main_arg0)) (m ((c : Thread nD τ).loc main_arg1)) (m ((c : Thread nD τ).loc main_arg2))
    (kappa (m ((c : Thread nD τ).loc main_arg1)) (m ((c : Thread nD τ).loc main_arg2)) (m ((c : Thread nD τ).loc main_arg3)))
    (hX c) (hLV c)
    (weights (m ((c : Thread nD τ).loc main_arg1)) (m ((c : Thread nD τ).loc main_arg2)))
    (weights_lo _ _) (weights_hi _ _)
    (kappaRow (m ((c : Thread nD τ).loc main_arg1)) (m ((c : Thread nD τ).loc main_arg2)) (m ((c : Thread nD τ).loc main_arg3)))
    (kappaRow_apply _ _ _)
    (iblk m c 0 t) (iblk m c 1 t) (iblk m c 2 t) t.val ht ?_ ?_ ?_ p q).trans ?_
  · intro p f
    show V m c main_v20 (((cfg0.win 0).blk t).view.emb (ix2 p f)) = _
    rw [V_samples]
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 1024 + 1 * f.val = f.val; omega
  · intro z
    show V m c main_v18 (((cfg0.win 1).blk t).view.emb z) = _
    rw [V_weights]
    refine congrArg _ (funext fun a => Fin.ext ?_)
    match a with
    | ⟨0, _⟩ => show win0_1.index t (0 : Fin 2) * 2048 + 1 * (z 0).val = (z 0).val; omega
    | ⟨1, _⟩ => show win0_1.index t (1 : Fin 2) * 256 + 1 * (z 1).val = (z 1).val; omega
  · intro z
    show V m c main_v19 (((cfg0.win 2).blk t).view.emb z) = _
    rw [V_kappaRow]
    refine congrArg _ (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega
  · refine congrArg (result m c) (funext fun a => Fin.ext ?_)
    match a with
    | ⟨0, _⟩ => show t.val * 256 + p.val = win0_3.index t (0 : Fin 2) * 256 + 1 * p.val; omega
    | ⟨1, _⟩ => show q.val = win0_3.index t (1 : Fin 2) * 256 + 1 * q.val; omega

/-- An index of the result array lies in point t's block iff each coordinate lies in the block's range on its axis. -/
theorem mem_block (t : Fin cfg0.N) (i : S2048x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v21).slice (win0_3.rect t)).set ↔ _
  rw [View.set_slice_whole, Rect.mem_set_unit]
  exact Iff.rfl

/-- Every index of the result array lies in the block of the point its row falls in. -/
theorem cover (i : S2048x256.Idx) :
    ∃ t : Fin cfg0.N, (cfg0.win 3).flush t = true ∧ i ∈ ((cfg0.win 3).blk t).view.set := by
  have hi0 : (i 0).val < 2048 := (i 0).isLt
  have hi1 : (i 1).val < 256 := (i 1).isLt
  have hlt : (i 0).val / 256 < cfg0.N := by show _ < 8; omega
  obtain ⟨_, _, _, _, _, _, e30, e31⟩ := block_indices ⟨(i 0).val / 256, hlt⟩
  refine ⟨⟨(i 0).val / 256, hlt⟩, flush0_3 _, ?_⟩
  rw [mem_block]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, hlt⟩ (1 : Fin 2) * 256 ≤ (i 1).val
      ∧ (i 1).val < win0_3.index ⟨(i 0).val / 256, hlt⟩ (1 : Fin 2) * 256 + 256
    omega

/-- After the run the result array is the score. -/
theorem final (hX : ∀ (c : Dev nD) (i : S2048x1024.Idx), ∃ r : ℝ, (m ((c : Thread nD τ).loc main_arg0) : S2048x1024.Idx → EReal) i = (r : EReal))
    (hLV : ∀ (c : Dev nD) (i : S256x1024.Idx), ∃ r : ℝ, (m ((c : Thread nD τ).loc main_arg2) : S256x1024.Idx → EReal) i = (r : EReal)) (c : Dev nD) :
    (dats m 0 c).arrAt 3 cfg0.N = result m c :=
  (dats m 0 c).arrAt_eq_of_cover 3 (result m c) (fun t _ => flushed_eq m hX hLV c t) cover

/-- The kernel's run: every weakly fair execution ends with the result array at the score and the arguments unchanged. -/
theorem run (hX : ∀ (c : Dev nD) (i : S2048x1024.Idx), ∃ r : ℝ, (m ((c : Thread nD τ).loc main_arg0) : S2048x1024.Idx → EReal) i = (r : EReal))
    (hLV : ∀ (c : Dev nD) (i : S256x1024.Idx), ∃ r : ℝ, (m ((c : Thread nD τ).loc main_arg2) : S256x1024.Idx → EReal) i = (r : EReal)) :
    θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hX hLV c), (h c).2⟩) (Value.run_blocks m ρ)

end Cert.KernelValue

end
-- ==== Proof.RefScore.lean ====
/-
  The reference program's result is the score, index by index.

  Read one operation at a time, entry (b, c) of the reference's result is
      (kappa c - 1/2 * sum_f (x(b,f) * x(b,f)) * e^(-lv(c,f))) + sum_f x(b,f) * (mu(c,f) * e^(-lv(c,f))):
  the two contractions run over the feature axis of both operands, the class constant is broadcast along the samples,
  and the literal 0x3F000000 is 1/2.
-/
import proofs.«159425_j21345987461759_2_alg».proof.Proof.Gen.ReferenceIdeal.Read
import proofs.«159425_j21345987461759_2_alg».proof.Proof.Score

noncomputable section

namespace Cert.RefScore

open Cert.ReferenceIdeal Cert.ReferenceIdeal.Read Idealize.ShloMosaic Idealize.ShloMosaic.ValueIdx
open scoped BigOperators

/-- The reference's last stage is the score of its arguments, with the per-class constant its own stage `val_main_v11`. -/
theorem ref_eq_score (x0 : S2048x1024.Idx → EReal) (x1 x2 : S256x1024.Idx → EReal) (x3 : S256.Idx → EReal) :
    val_main_v21 (F := Ideal) x0 x1 x2 x3 = Score.score x0 x1 x2 (val_main_v11 (F := Ideal) x1 x2 x3) := by
  funext i
  obtain ⟨b, c, rfl⟩ : ∃ (b : Fin 2048) (c : Fin 256), i = ix2 b c := ⟨i 0, i 1, eq_ix2 i⟩
  have e16 : idx_main_v16 (idx_main_v19 (ix2 b c)) = ix1 c :=
    funext fun a => Fin.ext (by match a with | ⟨0, _⟩ => rfl)
  have el13 : ∀ k, lidx_main_v13 (ix2 b c) k = ix2 b k := fun k =>
    funext fun a => Fin.ext (by match a with | ⟨0, _⟩ => rfl | ⟨1, _⟩ => rfl)
  have er13 : ∀ k, ridx_main_v13 (ix2 b c) k = ix2 c k := fun k =>
    funext fun a => Fin.ext (by match a with | ⟨0, _⟩ => rfl | ⟨1, _⟩ => rfl)
  have el15 : ∀ k, lidx_main_v15 (ix2 b c) k = ix2 b k := fun k =>
    funext fun a => Fin.ext (by match a with | ⟨0, _⟩ => rfl | ⟨1, _⟩ => rfl)
  have er15 : ∀ k, ridx_main_v15 (ix2 b c) k = ix2 c k := fun k =>
    funext fun a => Fin.ext (by match a with | ⟨0, _⟩ => rfl | ⟨1, _⟩ => rfl)
  rw [val_main_v21_apply, val_main_v20_apply, val_main_v19_apply, val_main_v16_apply, val_main_v18_apply,
    val_main_v17_apply, val_main_cst_3_apply, val_main_v13_apply, val_main_v15_apply, e16]
  simp only [el13, er13, el15, er15, val_main_v12_apply, val_main_v14_apply, val_main_v1_apply, val_main_v0_apply,
    Ideal.addf_def, Ideal.subf_def, Ideal.mulf_def, Ideal.ofBits_def, Ideal.hostUnary_exp_def, Ideal.hostNegf_def,
    Ideal.negf_def, GaussLaw.ofBits_half]
  rfl

end Cert.RefScore

end
-- ==== Proof.FiniteInputs.lean ====
/-
  The precondition read back: every sample x(b,f) and every log-variance lv(c,f) is a real number.

  The precondition is the conjunction of four tests "every |entry| < +inf", one per argument.  A conjunction of one-bit
  words that is 1 has every conjunct 1; a reduction by "and" that is 1 had a 1 at every entry; and an extended real
  whose absolute value max(x, -x) is below +inf is neither infinity, so it is a real.
-/
import proofs.«159425_j21345987461759_2_alg».proof.Pre_finite_inputs
import proofs.«159425_j21345987461759_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Cert.Pre_finite_inputs Idealize.ShloMosaic Idealize.ShloMosaic.ValueIdx

instance : Subsingleton S_.Idx := ⟨fun a b => funext fun d => d.elim0⟩

/-- An extended real whose absolute value tests below the pattern of +inf is a real number. -/
theorem real_of_abs_lt (x : EReal)
    (h : FloatOps.cmpf (F := Ideal) (φ := .f32) .olt (FloatOps.hostAbsf x) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => exact absurd h (by simp [Ideal.cmpf_def, Ideal.cmp, Ideal.absf_def])
  | coe r => exact ⟨r, rfl⟩
  | top => exact absurd h (by simp [Ideal.cmpf_def, Ideal.cmp, Ideal.absf_def])

/-- Under the precondition the samples and the log-variances are real, entry by entry. -/
theorem real_of_pre (a0 : FVec Ideal S2048x1024 .f32) (a1 a2 : FVec Ideal S256x1024 .f32) (a3 : FVec Ideal S256 .f32)
    (h : fn (F := Ideal) a0 a1 a2 a3 = fun _ => 1#1) :
    (∀ i, ∃ r : ℝ, a0 i = r) ∧ (∀ i, ∃ r : ℝ, a2 i = r) := by
  have h0 := congrFun h ix0
  dsimp only [fn, fn_part1] at h0
  obtain ⟨h13, _⟩ := IntOp.andi_eq_one.1 h0
  obtain ⟨h8, h12⟩ := IntOp.andi_eq_one.1 h13
  obtain ⟨h3, _⟩ := IntOp.andi_eq_one.1 h8
  refine ⟨fun i => real_of_abs_lt _ ?_, fun i => real_of_abs_lt _ ?_⟩
  · exact Host.reduce_andi_all _ _ _ _ _ h3 i
  · exact Host.reduce_andi_all _ _ _ _ _ h12 i

end Cert.FiniteInputs

end
-- ==== Proof.lean ====
/-
  A Gaussian naive-Bayes log-posterior, scored by one fused matrix product against the two-product formula.

  For samples x (2048 x 1024), class means mu and log-variances lv (256 x 1024) and log-priors log_pi (256), both
  programs return, at sample b and class c,
      kappa_c - 1/2 * sum_f x(b,f)^2 * e^(-lv(c,f)) + sum_f x(b,f) * mu(c,f) * e^(-lv(c,f)),
  kappa_c = log_pi_c - 1/2 * (1024 log 2π + sum_f lv(c,f) + sum_f mu(c,f)^2 e^(-lv(c,f))).
  The reference takes two contractions over the feature axis, halves the first and subtracts it.  The kernel stacks
  the weights -1/2 e^(-lv) and mu e^(-lv) into one 2048 x 256 matrix, concatenates x*x and x along the lanes, takes one
  contraction over the 2048 positions and adds the row of constants, eight blocks of 256 samples at a time.  On the
  extended reals the two agree once x and lv are real — the only place the precondition is used: -1/2 moves across
  the quadratic sum only when its terms are real; kappa and the linear sum may be anything, re-bracketing is free.
  Changes of float format are the identity at the ideal reading, so the bf16 casts do not appear.
-/
import proofs.«159425_j21345987461759_2_alg».proof.Defs
import proofs.«159425_j21345987461759_2_alg».proof.Proof.Gen.Kernel
import proofs.«159425_j21345987461759_2_alg».proof.Proof.Gen.Kernel.Frame
import proofs.«159425_j21345987461759_2_alg».proof.Proof.Gen.KernelIdeal
import proofs.«159425_j21345987461759_2_alg».proof.Proof.Gen.KernelIdeal.Frame
import proofs.«159425_j21345987461759_2_alg».proof.Proof.Gen.KernelIdeal.Value
import proofs.«159425_j21345987461759_2_alg».proof.Proof.Gen.ReferenceIdeal
import proofs.«159425_j21345987461759_2_alg».proof.Proof.Gen.ReferenceIdeal.Run
import proofs.«159425_j21345987461759_2_alg».proof.Proof.Gen.ReferenceIdeal.Read
import proofs.«159425_j21345987461759_2_alg».proof.Proof.Gen.Pre_finite_inputs
import proofs.«159425_j21345987461759_2_alg».proof.Proof.KernelValue
import proofs.«159425_j21345987461759_2_alg».proof.Proof.RefScore
import proofs.«159425_j21345987461759_2_alg».proof.Proof.FiniteInputs
import Idealize.ShloMosaic.Adequacy
import Idealize.ShloMosaic.Init

noncomputable section

namespace Cert.Proof

open Idealize.ShloMosaic Idealize.SL.Sem

/-- The per-class constant is the same formula in both programs. -/
theorem kappa_eq (x1 x2 : Cert.ReferenceIdeal.S256x1024.Idx → EReal) (x3 : Cert.ReferenceIdeal.S256.Idx → EReal) :
    Cert.ReferenceIdeal.Read.val_main_v11 (F := Ideal) x1 x2 x3 = Cert.HostPrefix.kappa x1 x2 x3 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the score of the (agreeing) arguments. -/
theorem algebraic : Cert.algebraic_KernelIdeal_ReferenceIdeal := by
  intro m ρ m' ρ' hpre hagree
  have hreal := fun c => Cert.FiniteInputs.real_of_pre _ _ _ _ (hpre c)
  refine ⟨fun c => Cert.KernelValue.result m c,
    Cert.KernelValue.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefScore.ref_eq_score, kappa_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
